-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4x2048x2048 .f32) (main_arg1 : FVec F S8192x2048 .f32) (main_arg2 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩
abbrev S1x8192 : Shape := ⟨2, ![1, 8192]⟩
abbrev S8192x8192 : Shape := ⟨2, ![8192, 8192]⟩
abbrev S2048x2048 : Shape := ⟨2, ![2048, 2048]⟩
abbrev S256x2048 : Shape := ⟨2, ![256, 2048]⟩
abbrev S1x256 : Shape := ⟨2, ![1, 256]⟩
abbrev S2048x256 : Shape := ⟨2, ![2048, 256]⟩
abbrev S4x2048x8192 : Shape := ⟨3, ![4, 2048, 8192]⟩

abbrev nBuf : Space → Nat
  | .hbm => 27
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .bf16⟩
  | .hbm, ⟨22, _⟩ => ⟨S8192x2048, .f32⟩
  | .hbm, ⟨23, _⟩ => ⟨S8192x2048, .bf16⟩
  | .hbm, ⟨24, _⟩ => ⟨S1x8192, .f32⟩
  | .hbm, ⟨25, _⟩ => ⟨S8192x8192, .f32⟩
  | .hbm, ⟨26, _⟩ => ⟨S4x2048x8192, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  shapeCasts_S4x2048x2048_S8192x2048 : S4x2048x2048.ShapeCasts S8192x2048
  shapeCasts_S8192_S1x8192 : S8192.ShapeCasts S1x8192
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S8192x8192_S4x2048x8192 : S8192x8192.ShapeCasts S4x2048x8192
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .bf16 = 32 ∨ (Rect.block (s := S8192x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .bf16 = 32 ∨ (Rect.block (s := S8192x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x8192.size a
  hwx0_3 : ∀ i : grid0.Coords, EltTy.bits .f32 = 32 ∨ (Rect.block (s := S8192x8192) S2048x256.size (cc0_transform_3 i) (hinb0_3 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_v10) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩
abbrev S4x2048x8192 : Shape := ⟨3, ![4, 2048, 8192]⟩
abbrev S1x1x8192 : Shape := ⟨3, ![1, 1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S4x2048x8192, .f32⟩
  | .hbm, ⟨24, _⟩ => ⟨S1x1x8192, .f32⟩
  | .hbm, ⟨25, _⟩ => ⟨S4x2048x8192, .f32⟩
  | .hbm, ⟨26, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  reducesTo_S8192x2048_S_d0_1 : S8192x2048.ReducesTo [0, 1] S_
  h_S_ : 0 < S_.numel
  bcast_S_S8192x2048 : S_.BroadcastsInDim S8192x2048 (![] : Fin 0 → Fin S8192x2048.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.FiniteWeights.lean ====
/-
  The precondition read back: every weight is a real number.

  The precondition states, for each of the three inputs, that the conjunction over ALL entries of |entry| < +∞ holds,
  and conjoins the three. Read at the one index of its scalar result and taken apart, its middle conjunct gives, for
  every entry w of the weights, max(w, −w) < +∞ on the extended reals — which excludes both infinities: w is (the
  inclusion of) a real number. Only the weights' finiteness is needed by this certificate.
-/
import proofs.«177131_j27917287424034_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Finite

open Cert.Pre_finite_inputs Idealize.ShloMosaic Idealize.ShloMosaic.ValueIdx

variable [Cert.Pre_finite_inputs.Facts]
open Cert.Pre_finite_inputs.Facts

instance : Subsingleton S_.Idx := ⟨fun a b => funext fun d => d.elim0⟩

/-- An extended real whose absolute value max(x, −x) is below +∞ is a real number. -/
theorem real_of_abs_lt_top (x : EReal) (h : max x (-x) < ⊤) : ∃ w : ℝ, x = (w : EReal) := by
  induction x using EReal.rec with
  | bot => exact absurd h (by simp)
  | coe w => exact ⟨w, rfl⟩
  | top => exact absurd h (by simp)

/-- Under the precondition every entry of the weights is a real number. -/
theorem weight_real (x0 : FVec Ideal S4x2048x2048 .f32) (x1 : FVec Ideal S8192x2048 .f32) (x2 : FVec Ideal S8192 .f32)
    (h : fn (F := Ideal) x0 x1 x2 = fun _ => 1#1) (i : S8192x2048.Idx) : ∃ w : ℝ, x1 i = (w : EReal) := by
  have h0 := congrFun h ix0
  dsimp only [fn] at h0
  have h1 := (IntOp.andi_eq_one.1 h0).1
  have h2 := (IntOp.andi_eq_one.1 h1).2
  have h3 := Host.reduce_andi_all _ _ _ _ _ h2 i
  have htop : Ideal.ofBits .f32 0x7F800000#32 = ⊤ := by simp [Ideal.ofBits, Ideal.ieee]
  have h4 : Ideal.cmp .olt (max (x1 i) (-(x1 i))) ⊤ = 1#1 := by rw [← htop]; exact h3
  refine real_of_abs_lt_top (x1 i) ?_
  by_contra hn
  simp only [Ideal.cmp, hn, decide_false] at h4
  exact absurd h4 (by decide)

end Cert.Pre_finite_inputs.Finite

end
-- ==== Proof.LinearSpec.lean ====
/-
  The specification: a linear layer with given weights.

  For activations X[b, s, i], a weight matrix Q[o, i] and a bias B[o], on the extended reals,
      Y[b, s, o] = Σᵢ X[b, s, i] · Q[o, i] + B[o].
  Both programs compute this with Q the ternary quantization of the weights. The reference does not use Q itself but
  the "straight-through" form W + (Q − W); on the extended reals that is Q wherever W is a real number (an infinite W
  would absorb the sum), which is where the finiteness of the weights enters.
-/
import Idealize.ShloMosaic.PureOps.Ideal
import Idealize.ShloMosaic.Lib.ValueIdx

noncomputable section

namespace Cert.Spec

open Idealize.ShloMosaic Idealize.ShloMosaic.ValueIdx

/-- Y[b, s, o] = Σᵢ X[b, s, i] · Q[o, i] + B[o]. -/
def linear (X : FVec Ideal ⟨3, ![4, 2048, 2048]⟩ .f32) (Q : FVec Ideal ⟨2, ![8192, 2048]⟩ .f32) (B : FVec Ideal ⟨1, ![8192]⟩ .f32) :
    FVec Ideal ⟨3, ![4, 2048, 8192]⟩ .f32 := fun i =>
  (∑ k : Fin 2048, X (ix3 (⟨(i 0).val, (i 0).isLt⟩ : Fin 4) (⟨(i 1).val, (i 1).isLt⟩ : Fin 2048) k)
      * Q (ix2 (⟨(i 2).val, (i 2).isLt⟩ : Fin 8192) k))
    + B (ix1 (⟨(i 2).val, (i 2).isLt⟩ : Fin 8192))

theorem linear_apply (X : FVec Ideal ⟨3, ![4, 2048, 2048]⟩ .f32) (Q : FVec Ideal ⟨2, ![8192, 2048]⟩ .f32) (B : FVec Ideal ⟨1, ![8192]⟩ .f32)
    (b : Fin 4) (s : Fin 2048) (o : Fin 8192) :
    linear X Q B (ix3 b s o) = (∑ k : Fin 2048, X (ix3 b s k) * Q (ix2 o k)) + B (ix1 o) := rfl

/-- The straight-through form: a real w plus (q − w) is q, for every extended real q. -/
theorem straight_through (w : ℝ) (q : EReal) : (w : EReal) + (q - (w : EReal)) = q := by
  rw [add_comm]; exact EReal.sub_add_cancel

end Cert.Spec

end
-- ==== Proof.ReferenceValue.lean ====
/-
  The reference computes the specification.

  The reference quantizes the weights, forms the straight-through weights W + (Q(W) − W), contracts the activations
  with them along the input axis (one dot_general, no reshape) and adds the bias broadcast over batch and sequence.
  Read at (b, s, o), with every weight a real number, that is Σᵢ X[b, s, i] · Q(W)[o, i] + B[o].
-/
import proofs.«177131_j27917287424034_2_alg».proof.Proof.Gen.ReferenceIdeal.Read
import proofs.«177131_j27917287424034_2_alg».proof.Proof.LinearSpec
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx

/-- Where the weights are real, the straight-through weights are the quantized weights. -/
theorem ste_apply (W : (⟨S8192x2048, .f32⟩ : BufTy).Contents (Elt Ideal)) (hW : ∀ i, ∃ w : ℝ, W i = (w : EReal))
    (i : S8192x2048.Idx) : val_main_v9 (F := Ideal) W i = val_main_v7 (F := Ideal) W i := by
  obtain ⟨w, hw⟩ := hW i
  rw [val_main_v9_apply, val_main_v8_apply]
  show W i + (val_main_v7 (F := Ideal) W i - W i) = _
  rw [hw]
  exact Cert.Spec.straight_through w _

/-- The reference's result is the linear layer with the quantized weights. -/
theorem result_eq (X : (⟨S4x2048x2048, .f32⟩ : BufTy).Contents (Elt Ideal)) (W : (⟨S8192x2048, .f32⟩ : BufTy).Contents (Elt Ideal))
    (B : (⟨S8192, .f32⟩ : BufTy).Contents (Elt Ideal)) (hW : ∀ i, ∃ w : ℝ, W i = (w : EReal)) :
    val_main_v13 (F := Ideal) X W B = Cert.Spec.linear X (val_main_v7 (F := Ideal) W) B := by
  funext i
  obtain ⟨b, s, o, rfl⟩ : ∃ (b : Fin 4) (s : Fin 2048) (o : Fin 8192), i = ix3 b s o := ⟨i 0, i 1, i 2, eq_ix3 i⟩
  rw [val_main_v13_apply, val_main_v10_apply, val_main_v12_apply, val_main_v11_apply, Cert.Spec.linear_apply]
  have el : ∀ k : Fin 2048, lidx_main_v10 (ix3 b s o) k = ix3 b s k := fun k => funext fun a => Fin.ext (by
    match a with | ⟨0, _⟩ => rfl | ⟨1, _⟩ => rfl | ⟨2, _⟩ => rfl)
  have er : ∀ k : Fin 2048, ridx_main_v10 (ix3 b s o) k = ix2 o k := fun k => funext fun a => Fin.ext (by
    match a with | ⟨0, _⟩ => rfl | ⟨1, _⟩ => rfl)
  have eb : idx_main_v11 (idx_main_v12 (ix3 b s o)) = ix1 o := funext fun a => Fin.ext (by
    match a with | ⟨0, _⟩ => rfl)
  show (∑ k : Fin 2048, X (lidx_main_v10 (ix3 b s o) k) * val_main_v9 (F := Ideal) W (ridx_main_v10 (ix3 b s o) k))
      + B (idx_main_v11 (idx_main_v12 (ix3 b s o))) = _
  rw [eb]
  refine congrArg (· + _) (Finset.sum_congr rfl fun k _ => ?_)
  rw [el, er, ste_apply W hW]

end Cert.ReferenceIdeal.RefValue

end
-- ==== Proof.LibTypedRef.lean ====
/-
  A host operation's result is written into a buffer whose declared type is, by a stated equation, the type of the value;
  the value is carried along that equation into the buffer and, when a later operation reads it, carried back. Carried
  there and back, a value is itself: the two transports cancel, whatever the value is.
-/
import Idealize.ShloMosaic.Lib.StableHlo

namespace Cert.Lib.TypedRef

open Idealize.ShloMosaic

/-- Contents carried to a typed reference's buffer type and back are the contents. -/
theorem ofBuf_toBuf {sg : RefSig} {T : BufTy} {Val : EltTy → Type} (x : StableHlo.TRef sg T) (v : T.Contents Val) :
    x.ofBuf (x.toBuf v) = v := by
  obtain ⟨r, h, _, _⟩ := x
  subst h
  rfl

/-- Contents of the buffer's type carried to the value's type and back are the contents. -/
theorem toBuf_ofBuf {sg : RefSig} {T : BufTy} {Val : EltTy → Type} (x : StableHlo.TRef sg T) (v : x.ref.ty.Contents Val) :
    x.toBuf (x.ofBuf v) = v := by
  obtain ⟨r, h, _, _⟩ := x
  subst h
  rfl

end Cert.Lib.TypedRef
-- ==== Proof.LibMergeRows.lean ====
/-
  Merging the two leading axes of a rank-3 array, and splitting them again.

  A reshape keeps the row-major position of every element. For an array of extents [a, b, c] reshaped to [n, c] with
  n = a · b, the element at (i, j, k) therefore lands in row r = i · b + j at column k; and the reshape back reads, at
  (i, j, k), the matrix at (i · b + j, k). Stated for any extents and any element type, with the row given together
  with the equation r = i · b + j, so that a caller supplies the row in whatever form it has it.
-/
import Idealize.ShloMosaic.Lib.ValueIdx
import Idealize.ShloMosaic.Lib.Pipeline.Value

namespace Cert.Lib.MergeRows

open Idealize.ShloMosaic Idealize.ShloMosaic.ValueIdx

variable {α : Type} {a b c n : ℕ}

/-- [a, b, c] reshaped to [n, c], read at row r = i · b + j and column k, is the array at (i, j, k). -/
theorem merge_apply (X : (⟨3, ![a, b, c]⟩ : Shape).Idx → α) (h : (⟨3, ![a, b, c]⟩ : Shape).ShapeCasts ⟨2, ![n, c]⟩)
    (i : Fin a) (j : Fin b) (k : Fin c) (r : Fin n) (hr : r.val = i.val * b + j.val) :
    shapeCast ⟨2, ![n, c]⟩ X h (ix2 r k) = X (ix3 i j k) :=
  shapeCast_apply X h _ _ (by
    rw [Shape.rowMajor_val_three, Shape.rowMajor_val_two]
    show (i.val * b + j.val) * c + k.val = r.val * c + k.val
    rw [hr])

/-- [n, c] reshaped to [a, b, c], read at (i, j, k), is the matrix at row r = i · b + j and column k. -/
theorem split_apply (Y : (⟨2, ![n, c]⟩ : Shape).Idx → α) (h : (⟨2, ![n, c]⟩ : Shape).ShapeCasts ⟨3, ![a, b, c]⟩)
    (i : Fin a) (j : Fin b) (k : Fin c) (r : Fin n) (hr : r.val = i.val * b + j.val) :
    shapeCast ⟨3, ![a, b, c]⟩ Y h (ix3 i j k) = Y (ix2 r k) :=
  shapeCast_apply Y h _ _ (by
    rw [Shape.rowMajor_val_three, Shape.rowMajor_val_two]
    show r.val * c + k.val = (i.val * b + j.val) * c + k.val
    rw [hr])

end Cert.Lib.MergeRows
-- ==== Proof.HostPrefix.lean ====
/-
  What the region finds in its three input arrays.

  Before the kernel is launched the host computes, from the weights W alone, the ternary quantization
      Q(W) = min(1, max(−1, round(W / (ε + mean |W|))))     (entrywise; the mean over all 8192 · 2048 entries)
  and narrows it to bf16; it reshapes the activations from [4, 2048, 2048] to 8192 rows of 2048 and narrows them to
  bf16; and it lays the bias out as one row [1, 8192]. On the extended reals a change of float format is the identity.
  So the kernel's three windows range over: the activations with their two leading axes merged, Q(W), and the bias row.
  The quantizer is kept as ONE named function of W and never opened here: the reference applies the same one.
-/
import proofs.«177131_j27917287424034_2_alg».proof.Proof.Gen.KernelIdeal.Frame
import proofs.«177131_j27917287424034_2_alg».proof.Proof.LibTypedRef
import proofs.«177131_j27917287424034_2_alg».proof.Proof.LibMergeRows
import Idealize.ShloMosaic.Lib.StableHlo.Run
import Idealize.ShloMosaic.Lib.ValueIdx
import Idealize.ShloMosaic.Lib.ValueLayout
import Idealize.ShloMosaic.PureOps.Ideal

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

/-- The ternary quantizer as the host spells it: W divided by the scale ε + (Σ|W|) / 2²⁴ (broadcast to every entry),
    rounded to the nearest integer (ties to even), then clamped below by −1 and above by 1. -/
def ternary (W : (⟨S8192x2048, .f32⟩ : BufTy).Contents (Elt Ideal)) : (⟨S8192x2048, .f32⟩ : BufTy).Contents (Elt Ideal) :=
  minimumf (broadcastInDim S8192x2048 ![] bcast_S_S8192x2048 (id (constant (F := Ideal) S_ .f32 0x3F800000#32)))
    (maximumf (broadcastInDim S8192x2048 ![] bcast_S_S8192x2048 (id (constant (F := Ideal) S_ .f32 0xBF800000#32)))
      (Host.roundeven (Host.divf W (broadcastInDim S8192x2048 ![] bcast_S_S8192x2048
        (addf (constant (F := Ideal) S_ .f32 0x3727C5AC#32)
          (Host.divf (Host.reduceAdd (Host.absf W) (constant (F := Ideal) S_ .f32 0x00000000#32) reducesTo_S8192x2048_S_d0_1 h_S_)
            (constant (F := Ideal) S_ .f32 0x4B800000#32)))))))

variable (m : (ℓ : Loc nD τ sig) → Buf (Elt Ideal) ℓ)

/-- The weights' window ranges over the quantized weights (narrowed to bf16). -/
theorem weights_window (c : Dev nD) :
    @Eq ((⟨S8192x2048, .bf16⟩ : BufTy).Contents (Elt Ideal)) (V m c main_v8)
      (truncf (F := Ideal) .bf16 (ternary (m ((c : Thread nD τ).loc main_arg1))) bitsLt_bf16_f32) := by
  dsimp only [Gen.V, Gen.V0]
  simp only [hostOps0, hostOps0_1, hostOps0_2, hostOps0_3, hostOps0_4, List.flatten_cons, List.flatten_nil, List.append_nil,
    List.cons_append, List.nil_append]
  after_results
  simp only [Cert.Lib.TypedRef.ofBuf_toBuf]
  rfl

/-- The activations' window ranges over the activations with their two leading axes merged (narrowed to bf16). -/
theorem acts_window (c : Dev nD) :
    @Eq ((⟨S8192x2048, .bf16⟩ : BufTy).Contents (Elt Ideal)) (V m c main_v10)
      (truncf (F := Ideal) .bf16 (shapeCast S8192x2048 (m ((c : Thread nD τ).loc main_arg0) : (⟨S4x2048x2048, .f32⟩ : BufTy).Contents (Elt Ideal))
        shapeCasts_S4x2048x2048_S8192x2048) bitsLt_bf16_f32) := by
  dsimp only [Gen.V, Gen.V0]
  simp only [hostOps0, hostOps0_1, hostOps0_2, hostOps0_3, hostOps0_4, List.flatten_cons, List.flatten_nil, List.append_nil,
    List.cons_append, List.nil_append]
  after_results
  rfl

/-- The bias' window ranges over the bias laid out as one row. -/
theorem bias_window (c : Dev nD) :
    (V m c main_v11 : (⟨S1x8192, .f32⟩ : BufTy).Contents (Elt Ideal))
      = shapeCast S1x8192 (m ((c : Thread nD τ).loc main_arg2)) shapeCasts_S8192_S1x8192 := by
  dsimp only [Gen.V, Gen.V0]
  simp only [hostOps0, hostOps0_1, hostOps0_2, hostOps0_3, hostOps0_4, List.flatten_cons, List.flatten_nil, List.append_nil,
    List.cons_append, List.nil_append]
  after_results
  rfl

/-- Entry (o, k) of the weights' array is entry (o, k) of the quantized weights. -/
theorem weights_apply (c : Dev nD) (o : Fin 8192) (k : Fin 2048) :
    (V m c main_v8 : (⟨S8192x2048, .bf16⟩ : BufTy).Contents (Elt Ideal)) (ix2 o k)
      = ternary (m ((c : Thread nD τ).loc main_arg1)) (ix2 o k) := by
  rw [weights_window]; rfl

/-- Entry (r, k) of the activations' array, r = b · 2048 + s, is the activation at (b, s, k). -/
theorem acts_apply (c : Dev nD) (b : Fin 4) (s : Fin 2048) (k : Fin 2048) (r : Fin 8192) (hr : r.val = b.val * 2048 + s.val) :
    (V m c main_v10 : (⟨S8192x2048, .bf16⟩ : BufTy).Contents (Elt Ideal)) (ix2 r k)
      = (m ((c : Thread nD τ).loc main_arg0) : (⟨S4x2048x2048, .f32⟩ : BufTy).Contents (Elt Ideal)) (ix3 b s k) := by
  rw [acts_window]
  exact Cert.Lib.MergeRows.merge_apply _ shapeCasts_S4x2048x2048_S8192x2048 b s k r hr

/-- Entry (0, o) of the bias row is entry o of the bias. -/
theorem bias_apply (c : Dev nD) (o : Fin 8192) :
    (V m c main_v11 : (⟨S1x8192, .f32⟩ : BufTy).Contents (Elt Ideal)) (ix2 (0 : Fin 1) o)
      = (m ((c : Thread nD τ).loc main_arg2) : (⟨S8192, .f32⟩ : BufTy).Contents (Elt Ideal)) (ix1 o) := by
  rw [bias_window]
  exact shapeCast_a_1a_apply _ shapeCasts_S8192_S1x8192 0 o

end Cert.KernelIdeal.Prefix

end
-- ==== Proof.TilePayload.lean ====
/-
  One tile of the product, read at one entry.

  The body of the kernel loads a block of 2048 rows of the activations (2048 columns each), a block of 256 rows of the
  quantized weights (2048 columns each) and the matching 256 entries of the bias as one row, multiplies the first by
  the TRANSPOSE of the second on the matrix unit into a zero accumulator (both operands are contracted along their
  second axis), and adds the bias row to every row of the product. On the extended reals the entry (p, q) of what it
  stores is therefore the plain sum over k of x(p, k) · w(q, k), plus b(0, q).
-/
import proofs.«177131_j27917287424034_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

local notation "dotT" => dot_S2048x2048_S256x2048_S2048x256_1_1_0_0_n_n

/-- The left operand of the transposed product is read at (row of the output, contraction index) … -/
theorem lhs_row (j : S2048x256.Idx) (k : (dotT).contr.Idx) : ((dotT).lhsIdx j k 0).val = (j 0).val := by
  unfold DotDims.lhsIdx
  rw [dif_neg (show ¬(0 : Fin S2048x2048.rank) ∈ (dotT).lhsBatch by decide),
    dif_pos (show (0 : Fin S2048x2048.rank) ∈ (dotT).lhsNonContracting by decide)]
  rfl
theorem lhs_contr (j : S2048x256.Idx) (k : (dotT).contr.Idx) : ((dotT).lhsIdx j k 1).val = (k ⟨0, by decide⟩).val :=
  (dotT).lhsIdx_val_of_single rfl j k
/-- … and the right operand at (COLUMN of the output, contraction index): the weights enter transposed. -/
theorem rhs_row (j : S2048x256.Idx) (k : (dotT).contr.Idx) : ((dotT).rhsIdx j k 0).val = (j 1).val := by
  unfold DotDims.rhsIdx
  rw [dif_neg (show ¬(0 : Fin S256x2048.rank) ∈ (dotT).rhsBatch by decide),
    dif_pos (show (0 : Fin S256x2048.rank) ∈ (dotT).rhsNonContracting by decide)]
  rfl
theorem rhs_contr (j : S2048x256.Idx) (k : (dotT).contr.Idx) : ((dotT).rhsIdx j k 1).val = (k ⟨0, by decide⟩).val :=
  (dotT).rhsIdx_val_of_single rfl j k

/-- The product of a block of activations with the transpose of a block of weights, into the zero accumulator, at
    (p, q): the sum over the shared axis of x(p, k) · w(q, k). -/
theorem matmulT_apply (x : FVec Ideal S2048x2048 .bf16) (w : FVec Ideal S256x2048 .bf16) (p : Fin 2048) (q : Fin 256) :
    matmul (F := Ideal) dotT none x w (constant S2048x256 .f32 0x00000000#32) (ix2 p q)
      = ∑ k : Fin 2048, x (ix2 p k) * w (ix2 q k) := by
  simp only [matmul]
  rw [Ideal.matmul_constant_zero_apply, ← Equiv.sum_comp (contrEquiv1 dotT 2048 rfl rfl).symm]
  refine Finset.sum_congr rfl fun k _ => ?_
  have hk := contrEquiv1_symm_val dotT 2048 rfl rfl k
  have el : (dotT).lhsIdx (ix2 p q) ((contrEquiv1 dotT 2048 rfl rfl).symm k) = ix2 p k := funext fun a => Fin.ext (by
    match a with
    | ⟨0, _⟩ => exact lhs_row _ _
    | ⟨1, _⟩ => exact (lhs_contr _ _).trans hk)
  have er : (dotT).rhsIdx (ix2 p q) ((contrEquiv1 dotT 2048 rfl rfl).symm k) = ix2 q k := funext fun a => Fin.ext (by
    match a with
    | ⟨0, _⟩ => exact rhs_row _ _
    | ⟨1, _⟩ => exact (rhs_contr _ _).trans hk)
  rw [el, er]

/-- What the body stores, at the entry (p, q) of its tile: Σₖ x(p, k) · w(q, k) + b(0, q). -/
theorem tile_apply (x0 : Vec Ideal S2048x2048 .bf16) (x1 : Vec Ideal S256x2048 .bf16) (x2 : Vec Ideal S1x256 .f32)
    (p : Fin 2048) (q : Fin 256) :
    k0_pay1 (F := Ideal) x0 x1 x2 (ix2 p q) = (∑ k : Fin 2048, x0 (ix2 p k) * x1 (ix2 q k)) + x2 (ix2 (0 : Fin 1) q) := by
  unfold k0_pay1
  show addf _ _ (ix2 p q) = _
  rw [addf_apply, shapeCast_self, shapeCast_self, shapeCast_self, matmulT_apply, broadcastTo_1b_ab_apply]

end Cert.KernelIdeal.Tile

end
-- ==== Proof.ProductBlocks.lean ====
/-
  From tiles to the whole product.

  The grid has 4 × 32 points. At the point (i, j) the kernel is handed rows 2048·i … 2048·i + 2047 of the activations
  (all 2048 columns), rows 256·j … 256·j + 255 of the quantized weights (all 2048 columns) and entries 256·j …
  256·j + 255 of the bias row, and writes back the 2048 × 256 tile of the output at block (i, j). Since each tile's
  entry (p, q) is Σₖ x(p, k) · w(q, k) + b(0, q) of the blocks it was handed, the tile at (i, j) is exactly the block
  (i, j) of ONE 8192 × 8192 matrix,
      P(r, o) = Σₖ A(r, k) · Wq(o, k) + β(0, o),
  of the three arrays A, Wq, β as the region finds them. The 128 tiles cover every index of the output (row r lies in
  block r / 2048, column o in block o / 256), so after the region the output array IS that matrix.
-/
import proofs.«177131_j27917287424034_2_alg».proof.Proof.Gen.KernelIdeal.Frame
import proofs.«177131_j27917287424034_2_alg».proof.Proof.TilePayload
import Idealize.ShloMosaic.Lib.Pipeline.Value
import Idealize.ShloMosaic.Lib.ValueIdx
import Idealize.ShloMosaic.PureOps.Ideal

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The product with the transposed quantized weights, plus the bias row, as one 8192 × 8192 matrix of the three arrays. -/
def product (A : FVec Ideal S8192x2048 .bf16) (Wq : FVec Ideal S8192x2048 .bf16) (β : FVec Ideal S1x8192 .f32) :
    FVec Ideal S8192x8192 .f32 := fun i =>
  (∑ k : Fin 2048, A (ix2 (⟨(i 0).val, idx2_lt0 i⟩ : Fin 8192) k) * Wq (ix2 (⟨(i 1).val, idx2_lt1 i⟩ : Fin 8192) k))
    + β (ix2 (0 : Fin 1) (⟨(i 1).val, idx2_lt1 i⟩ : Fin 8192))

theorem product_apply (A : FVec Ideal S8192x2048 .bf16) (Wq : FVec Ideal S8192x2048 .bf16) (β : FVec Ideal S1x8192 .f32)
    (r o : Fin 8192) :
    product A Wq β (ix2 r o) = (∑ k : Fin 2048, A (ix2 r k) * Wq (ix2 o k)) + β (ix2 (0 : Fin 1) o) := rfl

variable (m : (ℓ : Loc nD τ sig) → Buf (Elt Ideal) ℓ)

theorem zeros : (![0, 0] : Fin 2 → Nat) = fun _ => 0 := funext fun a => by fin_cases a <;> rfl

/-- The printed index maps over the grid: the activations' block follows the output's block row and the weights' and
    the bias' blocks its block column; the other block indices are zero; the output's block indices stay in range. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 31 :=
  (by decide +kernel : ∀ t : Fin grid0.N, _)

/-- Every block (i, j) of the output is some grid point's. -/
theorem index_onto : ∀ (q0 : Fin 4) (q1 : Fin 32), ∃ t : Fin cfg0.N, win0_3.index t = ![q0.val, q1.val] :=
  (by decide +kernel : ∀ (q0 : Fin 4) (q1 : Fin 32), ∃ t : Fin grid0.N, win0_3.index t = ![q0.val, q1.val])

/-- Row p, column k of the activations' block at point t is row r = 2048 · (block row) + p, column k of the array. -/
theorem acts_block (c : Dev nD) (t : Fin cfg0.N) (p k : Fin 2048) (r : Fin 8192)
    (hr : r.val = win0_3.index t (0 : Fin 2) * 2048 + p.val) :
    iblk m c 0 t (ix2 p k) = (V m c main_v10 : (⟨S8192x2048, .bf16⟩ : BufTy).Contents (Elt Ideal)) (ix2 r k) := by
  obtain ⟨e0, e1, -⟩ := index_facts t
  show V m c main_v10 (((cfg0.win 0).blk t).view.emb (ix2 p k)) = V m c main_v10 (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 2048 + 1 * k.val = k.val; omega

/-- Row q, column k of the weights' block at point t is row o = 256 · (block column) + q, column k of the array. -/
theorem weights_block (c : Dev nD) (t : Fin cfg0.N) (q : Fin 256) (k : Fin 2048) (o : Fin 8192)
    (ho : o.val = win0_3.index t (1 : Fin 2) * 256 + q.val) :
    iblk m c 1 t (ix2 q k) = (V m c main_v8 : (⟨S8192x2048, .bf16⟩ : BufTy).Contents (Elt Ideal)) (ix2 o k) := by
  obtain ⟨-, -, e2, e3, -⟩ := index_facts t
  show V m c main_v8 (((cfg0.win 1).blk t).view.emb (ix2 q k)) = V m c main_v8 (ix2 o k)
  refine congrArg _ (funext fun a => Fin.ext ?_)
  match a with
  | ⟨0, _⟩ => show win0_1.index t (0 : Fin 2) * 256 + 1 * q.val = o.val; omega
  | ⟨1, _⟩ => show win0_1.index t (1 : Fin 2) * 2048 + 1 * k.val = k.val; omega

/-- Entry q of the bias' block at point t is entry o = 256 · (block column) + q of the bias row. -/
theorem bias_block (c : Dev nD) (t : Fin cfg0.N) (q : Fin 256) (o : Fin 8192)
    (ho : o.val = win0_3.index t (1 : Fin 2) * 256 + q.val) :
    iblk m c 2 t (ix2 (0 : Fin 1) q) = (V m c main_v11 : (⟨S1x8192, .f32⟩ : BufTy).Contents (Elt Ideal)) (ix2 (0 : Fin 1) o) := by
  obtain ⟨-, -, -, -, e4, e5, -⟩ := index_facts t
  show V m c main_v11 (((cfg0.win 2).blk t).view.emb (ix2 (0 : Fin 1) q)) = V m c main_v11 (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * q.val = o.val; omega

/-- WHAT POINT t WRITES BACK is block t of the product matrix of the three arrays as the region finds them. -/
theorem flushed_eq (c : Dev nD) (t : Fin cfg0.N) :
    (dats m 0 c).flushed 3 t
      = ((cfg0.win 3).blk t).view.read (Elt Ideal) (product (V m c main_v10) (V m c main_v8) (V m c main_v11)) := by
  show (cfg0.win 3).cut (grid0.coords t) ((dats m 0 c).after 3 t) = _
  rw [after0_3]
  unfold out0_3
  rw [View.canon_unit_zero zeros]
  simp only [View.ld_unit_zero (S := S2048x2048) zeros, View.ld_unit_zero (S := S256x2048) zeros, View.ld_unit_zero (S := S1x256) zeros]
  obtain ⟨-, -, -, -, -, -, b0, b1⟩ := index_facts t
  funext j
  obtain ⟨p, q, rfl⟩ : ∃ (p : Fin 2048) (q : Fin 256), j = ix2 p q := ⟨j 0, j 1, eq_ix2 j⟩
  have hr : win0_3.index t (0 : Fin 2) * 2048 + p.val < 8192 := by have := p.isLt; omega
  have ho : win0_3.index t (1 : Fin 2) * 256 + q.val < 8192 := by have := q.isLt; omega
  refine (Cert.KernelIdeal.Tile.tile_apply (iblk m c 0 t) (iblk m c 1 t) (iblk m c 2 t) p q).trans ?_
  have hemb : ((cfg0.win 3).blk t).view.emb (ix2 p q)
      = ix2 (⟨win0_3.index t (0 : Fin 2) * 2048 + p.val, hr⟩ : Fin 8192) (⟨win0_3.index t (1 : Fin 2) * 256 + q.val, ho⟩ : Fin 8192) := by
    funext a; apply Fin.ext
    match a with
    | ⟨0, _⟩ => show win0_3.index t (0 : Fin 2) * 2048 + 1 * p.val = win0_3.index t (0 : Fin 2) * 2048 + p.val; omega
    | ⟨1, _⟩ => show win0_3.index t (1 : Fin 2) * 256 + 1 * q.val = win0_3.index t (1 : Fin 2) * 256 + q.val; omega
  show _ = product (V m c main_v10) (V m c main_v8) (V m c main_v11) (((cfg0.win 3).blk t).view.emb (ix2 p q))
  rw [hemb, product_apply, bias_block m c t q ⟨_, ho⟩ rfl]
  refine congrArg (· + _) (Finset.sum_congr rfl fun k _ => ?_)
  rw [acts_block m c t p k ⟨_, hr⟩ rfl, weights_block m c t q k ⟨_, ho⟩ rfl]

/-- An index of the output is in point t's block iff each coordinate is in the block's range on its axis. -/
theorem mem_blk (t : Fin cfg0.N) (i : S8192x8192.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v12).slice (win0_3.rect t)).set ↔ _
  rw [View.set_slice_whole, Rect.mem_set_unit]
  exact Iff.rfl

/-- The tiles cover the output: (r, o) lies in the block (r / 2048, o / 256). -/
theorem cover (i : S8192x8192.Idx) : ∃ t : Fin cfg0.N, (cfg0.win 3).flush t = true ∧ i ∈ ((cfg0.win 3).blk t).view.set := by
  have hi0 : (i 0).val < 8192 := idx2_lt0 i
  have hi1 : (i 1).val < 8192 := idx2_lt1 i
  obtain ⟨t, ht⟩ := index_onto ⟨(i 0).val / 2048, by omega⟩ ⟨(i 1).val / 256, by omega⟩
  have q0 : win0_3.index t (0 : Fin 2) = (i 0).val / 2048 := congrFun ht 0
  have q1 : win0_3.index t (1 : Fin 2) = (i 1).val / 256 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 256 ≤ (i 1).val ∧ (i 1).val < win0_3.index t (1 : Fin 2) * 256 + 256
    omega

/-- THE OUTPUT ARRAY after the region is the product matrix. -/
theorem final (c : Dev nD) :
    (dats m 0 c).arrAt 3 cfg0.N = product (V m c main_v10) (V m c main_v8) (V m c main_v11) :=
  (dats m 0 c).arrAt_eq_of_cover 3 _ (fun t _ => flushed_eq m c t) cover

end Cert.KernelIdeal.Blocks

end
-- ==== Proof.KernelValue.lean ====
/-
  The kernel computes the specification.

  After the region the output array is the 8192 × 8192 product matrix of the three arrays the region found; the one
  host operation after the region splits its rows back into (batch, sequence). With what the host prefix put into the
  three arrays — the activations with (batch, sequence) merged into rows, the quantized weights, the bias as one row —
  the result at (b, s, o) is Σᵢ X[b, s, i] · Q(W)[o, i] + B[o].
-/
import proofs.«177131_j27917287424034_2_alg».proof.Proof.Gen.KernelIdeal.Frame
import proofs.«177131_j27917287424034_2_alg».proof.Proof.HostPrefix
import proofs.«177131_j27917287424034_2_alg».proof.Proof.ProductBlocks
import proofs.«177131_j27917287424034_2_alg».proof.Proof.LinearSpec
import proofs.«177131_j27917287424034_2_alg».proof.Proof.LibMergeRows
import Idealize.ShloMosaic.Lib.StableHlo.Run
import Idealize.ShloMosaic.Lib.Pipeline.Value
import Idealize.ShloMosaic.Lib.ValueIdx

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The product matrix of the three arrays, read at row b · 2048 + s and column o, is the specification at (b, s, o). -/
theorem product_row (c : Dev nD) (b : Fin 4) (s : Fin 2048) (o : Fin 8192) (r : Fin 8192) (hr : r.val = b.val * 2048 + s.val) :
    Cert.KernelIdeal.Blocks.product (V m c main_v10) (V m c main_v8) (V m c main_v11) (ix2 r o)
      = Cert.Spec.linear (m ((c : Thread nD τ).loc main_arg0)) (Cert.KernelIdeal.Prefix.ternary (m ((c : Thread nD τ).loc main_arg1)))
          (m ((c : Thread nD τ).loc main_arg2)) (ix3 b s o) := by
  rw [Cert.KernelIdeal.Blocks.product_apply, Cert.Spec.linear_apply, Cert.KernelIdeal.Prefix.bias_apply]
  refine congrArg (· + _) (Finset.sum_congr rfl fun k _ => ?_)
  rw [Cert.KernelIdeal.Prefix.acts_apply m c b s k r hr, Cert.KernelIdeal.Prefix.weights_apply]

/-- THE RESULT of the kernel's program: the specification of the three argument arrays. -/
theorem result_eq (c : Dev nD) :
    @Eq ((⟨S4x2048x8192, .f32⟩ : BufTy).Contents (Elt Ideal))
      (Pipeline.afterTail₀ cfgs (dats m) 0 (V0 m) [hostOps1] c main_v13)
      (Cert.Spec.linear (m ((c : Thread nD τ).loc main_arg0)) (Cert.KernelIdeal.Prefix.ternary (m ((c : Thread nD τ).loc main_arg1)))
          (m ((c : Thread nD τ).loc main_arg2))) := by
  unfold Pipeline.afterTail₀
  show StableHlo.after hostOps1 _ (Proc.devRef .tc main_v13) = _
  after_results
  have hw := (Pipeline.withArrays_arr spec0 launch0.win.arr_inj c (V0 m c) (fun w => (dats m 0 c).arrAt w (cfgs 0).N) 3).trans
    (Cert.KernelIdeal.Blocks.final m c)
  funext i
  obtain ⟨b, s, o, rfl⟩ : ∃ (b : Fin 4) (s : Fin 2048) (o : Fin 8192), i = ix3 b s o := ⟨i 0, i 1, i 2, eq_ix3 i⟩
  have hr : b.val * 2048 + s.val < 8192 := by have := b.isLt; have := s.isLt; omega
  show shapeCast S4x2048x8192 (Pipeline.withArrays (cfgs 0).spec c (V0 m c) (fun w => (dats m 0 c).arrAt w (cfgs 0).N)
      (Proc.devRef .tc main_v12)) shapeCasts_S8192x8192_S4x2048x8192 (ix3 b s o) = _
  refine (Cert.Lib.MergeRows.split_apply _ shapeCasts_S8192x8192_S4x2048x8192 b s o ⟨_, hr⟩ rfl).trans ?_
  refine (congrFun hw (ix2 (⟨_, hr⟩ : Fin 8192) o)).trans ?_
  exact product_row m c b s o ⟨_, hr⟩ rfl

end Cert.KernelIdeal.KernelValue

end
-- ==== Proof.lean ====
/-
  A ternary-weight linear layer: the kernel and its reference compute one function on the extended reals.

  Both programs quantize the weights W[8192, 2048] to Q(W) = min(1, max(−1, round(W / (ε + mean|W|)))) with the same
  host operations, literal for literal. The kernel then multiplies the activations (their batch and sequence axes
  merged into 8192 rows) by the transpose of Q(W), 2048 × 256 output tiles at a time over a 4 × 32 grid, each tile one
  product over the whole input axis into a zero accumulator plus the matching piece of the bias, and splits the rows
  of the result back into (batch, sequence). The reference contracts the activations with the straight-through
  weights W + (Q(W) − W) in one dot_general and adds the broadcast bias.

  On the extended reals a change of float format is the identity, the products are plain sums over the input axis,
  and W + (Q − W) = Q wherever W is a real number — which the precondition (every input finite) provides for the
  weights. So both results are   Y[b, s, o] = Σᵢ X[b, s, i] · Q(W)[o, i] + B[o]   (LinearSpec): the reference's by
  ReferenceValue, the kernel's by TilePayload (one tile at one entry), ProductBlocks (the 128 tiles are the blocks of
  one 8192 × 8192 matrix and cover it), HostPrefix (what the three input arrays hold at the launch) and KernelValue
  (the rows split back). The quantizer is never opened: it is the same term on both sides.

  The frames of the two kernel programs are the generated ones; the reference's frame is its generated run with the
  result forgotten; the ideal pass rewrote nothing, so there is nothing to preserve.
-/
import proofs.«177131_j27917287424034_2_alg».proof.Defs
import proofs.«177131_j27917287424034_2_alg».proof.Proof.Gen.Kernel
import proofs.«177131_j27917287424034_2_alg».proof.Proof.Gen.Kernel.Skeleton
import proofs.«177131_j27917287424034_2_alg».proof.Proof.Gen.Kernel.Launch
import proofs.«177131_j27917287424034_2_alg».proof.Proof.Gen.Kernel.Points
import proofs.«177131_j27917287424034_2_alg».proof.Proof.Gen.Kernel.Frame
import proofs.«177131_j27917287424034_2_alg».proof.Proof.Gen.KernelIdeal
import proofs.«177131_j27917287424034_2_alg».proof.Proof.Gen.KernelIdeal.Skeleton
import proofs.«177131_j27917287424034_2_alg».proof.Proof.Gen.KernelIdeal.Launch
import proofs.«177131_j27917287424034_2_alg».proof.Proof.Gen.KernelIdeal.Points
import proofs.«177131_j27917287424034_2_alg».proof.Proof.Gen.KernelIdeal.Frame
import proofs.«177131_j27917287424034_2_alg».proof.Proof.Gen.ReferenceIdeal
import proofs.«177131_j27917287424034_2_alg».proof.Proof.Gen.Pre_finite_inputs
import proofs.«177131_j27917287424034_2_alg».proof.Proof.Gen.ReferenceIdeal.Run
import proofs.«177131_j27917287424034_2_alg».proof.Proof.Gen.ReferenceIdeal.Read
import proofs.«177131_j27917287424034_2_alg».proof.Proof.FiniteWeights
import proofs.«177131_j27917287424034_2_alg».proof.Proof.ReferenceValue
import proofs.«177131_j27917287424034_2_alg».proof.Proof.KernelValue
import Idealize.ShloMosaic.Adequacy
import Idealize.ShloMosaic.Init

noncomputable section

namespace Cert.Proof

open Idealize.ShloMosaic Idealize.ShloMosaic.TcCoe Idealize.SL.Sem

/-- The two programs spell the quantizer identically: one function of the weights. -/
theorem quantizer_eq (W : (⟨Cert.KernelIdeal.S8192x2048, .f32⟩ : BufTy).Contents (Elt Ideal)) :
    Cert.KernelIdeal.Prefix.ternary W = Cert.ReferenceIdeal.Read.val_main_v7 (F := Ideal) W := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three inputs both programs end at the linear layer with the quantized weights:
    the kernel's run read through its tiles and its host operations, the reference's run read stage by stage, the
    straight-through weights collapsed by the finiteness of W. -/
theorem algebraic : Cert.algebraic_KernelIdeal_ReferenceIdeal := by
  intro m ρ m' ρ' hpre hagree
  refine ⟨fun c => Cert.Spec.linear (m ((c.tc : Thread Cert.KernelIdeal.nD Cert.KernelIdeal.τ).loc Cert.KernelIdeal.main_arg0))
      (Cert.KernelIdeal.Prefix.ternary (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Gen.run_main m ρ)
    · exact ((h c).2 Cert.KernelIdeal.main_v13 (Pipeline.mem_restRefs_of Cert.KernelIdeal.main_v13 (by decide) (by decide))).trans
        (Cert.KernelIdeal.KernelValue.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
  · refine (θ_run Cert.ReferenceIdeal.defs _ _).mono (fun r h c => ⟨(h c).1.trans ?_, (h c).2⟩)
      (Cert.ReferenceIdeal.Value.run (F := Ideal) m' ρ')
    have hW : ∀ i, ∃ w : ℝ, m ((c.tc : Thread Cert.KernelIdeal.nD Cert.KernelIdeal.τ).loc Cert.KernelIdeal.main_arg1) i = (w : EReal) :=
      fun i => Cert.Pre_finite_inputs.Finite.weight_real _ _ _ (hpre c) i
    rw [Cert.ReferenceIdeal.Read.val_main_v13_eq, (hagree c).1, (hagree c).2.1, (hagree c).2.2]
    rw [Cert.ReferenceIdeal.RefValue.result_eq _ _ _ hW, ← quantizer_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
